-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S20x64 : Shape := ⟨2, ![20, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S20x64 : S_.BroadcastsInDim S20x64 (![] : Fin 0 → Fin S20x64.rank)
  reducesTo_S20x64_S_d0_1 : S20x64.ReducesTo [0, 1] S_

variable [Facts]

def fn {F : FTy → Type} [FloatOps F] (main_arg0 : FVec F S1000000x64 .f32) (main_arg1 : FVec F S20x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S20x64 .f32 := Host.absf main_arg1
  let main_cst_0 : FVec F S_ .f32 := constant S_ .f32 0x7F800000#32
  let main_v5 : FVec F S20x64 .f32 := broadcastInDim S20x64 ![] bcast_S_S20x64 main_cst_0
  let main_v6 : IVec S20x64 1 := cmpf .olt main_v4 main_v5
  let main_c_1 : IVec S_ 1 := constantI S_ 1 1#1
  let main_v7 : IVec S_ 1 := (fun x v => Host.reduce IntOp.andi x v reducesTo_S20x64_S_d0_1 h_S_) main_v6 main_c_1
  let main_v8 : IVec S_ 1 := andi main_v3 main_v7
  main_v8
-- ==== Kernel.lean ====
abbrev S1000000x64 : Shape := ⟨2, ![1000000, 64]⟩
abbrev S20x64 : Shape := ⟨2, ![20, 64]⟩
abbrev S1000000x20 : Shape := ⟨2, ![1000000, 20]⟩
abbrev S5000x64 : Shape := ⟨2, ![5000, 64]⟩
abbrev S5000x20 : Shape := ⟨2, ![5000, 20]⟩
abbrev S5000 : Shape := ⟨1, ![5000]⟩
abbrev S5000x1 : Shape := ⟨2, ![5000, 1]⟩
abbrev S20 : Shape := ⟨1, ![20]⟩
abbrev S1x20 : Shape := ⟨2, ![1, 20]⟩
abbrev S64x20 : Shape := ⟨2, ![64, 20]⟩

abbrev nBuf : Space → Nat
  | .hbm => 3
  | .vmem => 5
  | .smem => 0
  | _ => 0

abbrev bufTy : (tb : Table) → Fin (tcTables nBuf tb) → BufTy
  | .hbm, ⟨0, _⟩ => ⟨S1000000x64, .f32⟩
  | .hbm, ⟨1, _⟩ => ⟨S20x64, .f32⟩
  | .hbm, ⟨2, _⟩ => ⟨S1000000x20, .f32⟩
  | .local _ .vmem, ⟨0, _⟩ => ⟨S5000x64, .f32⟩
  | .local _ .vmem, ⟨1, _⟩ => ⟨S5000x64, .f32⟩
  | .local _ .vmem, ⟨2, _⟩ => ⟨S20x64, .f32⟩
  | .local _ .vmem, ⟨3, _⟩ => ⟨S5000x20, .f32⟩
  | .local _ .vmem, ⟨4, _⟩ => ⟨S5000x20, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x64_S5000x64_0_0 : ∀ a, (![0, 0] : Fin 2 → Nat) a + S5000x64.size a ≤ S5000x64.size a
  h_S5000x64 : 0 < S5000x64.numel
  inb_S20x64_S20x64_0_0 : ∀ a, (![0, 0] : Fin 2 → Nat) a + S20x64.size a ≤ S20x64.size a
  h_S20x64 : 0 < S20x64.numel
  reduces_S5000x64_S5000 : S5000x64.Reduces [1] S5000
  shapeCasts_S5000_S5000x1 : S5000.ShapeCasts S5000x1
  reduces_S20x64_S20 : S20x64.Reduces [1] S20
  shapeCasts_S20_S1x20 : S20.ShapeCasts S1x20
  bitsLt_bf16_f32 : FTy.bits .bf16 < FTy.bits .f32
  transposes_S20x64_p1_0_S64x20 : S20x64.Transposes [1, 0] S64x20
  broadcasts_S5000x1_S5000x20 : S5000x1.Broadcasts S5000x20
  broadcasts_S1x20_S5000x20 : S1x20.Broadcasts S5000x20
  reduces_S5000x20_S5000 : S5000x20.Reduces [1] S5000
  inb_S5000x20_S5000x20_0_0 : ∀ a, (![0, 0] : Fin 2 → Nat) a + S5000x20.size a ≤ S5000x20.size a
  h_S5000x20 : 0 < S5000x20.numel
  dot_S5000x64_S64x20_S5000x20_1_0_0_1_n_n_wf : DotDims.WF S5000x64 S64x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x64.size a ≤ S20x64.size a
  hwx0_1 : ∀ i : grid0.Coords, EltTy.bits .f32 = 32 ∨ (Rect.block (s := S20x64) S20x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x20.size a ≤ S1000000x20.size a
  hwx0_2 : ∀ i : grid0.Coords, EltTy.bits .f32 = 32 ∨ (Rect.block (s := S1000000x20) S5000x20.size (cc0_transform_2 i) (hinb0_2 i)).WholeWords (EltTy.packing .f32)

variable [Facts₀]

def dot_S5000x64_S64x20_S5000x20_1_0_0_1_n_n : DotDims S5000x64 S64x20 S5000x20 where
  lhsContracting := [1]
  rhsContracting := [0]
  lhsNonContracting := [0]
  rhsNonContracting := [1]
  lhsBatch := []
  rhsBatch := []
  wf := dot_S5000x64_S64x20_S5000x20_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S20x64 : Shape := ⟨2, ![20, 64]⟩
abbrev S_ : Shape := ⟨0, ![]⟩
abbrev S1000000 : Shape := ⟨1, ![1000000]⟩
abbrev S1000000x1 : Shape := ⟨2, ![1000000, 1]⟩
abbrev S20 : Shape := ⟨1, ![20]⟩
abbrev S1x20 : Shape := ⟨2, ![1, 20]⟩
abbrev S64x20 : Shape := ⟨2, ![64, 20]⟩
abbrev S1000000x20 : Shape := ⟨2, ![1000000, 20]⟩

abbrev nBuf : Space → Nat
  | .hbm => 36
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S20x64, .f32⟩
  | .hbm, ⟨2, _⟩ => ⟨S1000000x64, .f32⟩
  | .hbm, ⟨3, _⟩ => ⟨S_, .f32⟩
  | .hbm, ⟨4, _⟩ => ⟨S1000000, .f32⟩
  | .hbm, ⟨5, _⟩ => ⟨S1000000x1, .f32⟩
  | .hbm, ⟨6, _⟩ => ⟨S20x64, .f32⟩
  | .hbm, ⟨7, _⟩ => ⟨S_, .f32⟩
  | .hbm, ⟨8, _⟩ => ⟨S20, .f32⟩
  | .hbm, ⟨9, _⟩ => ⟨S1x20, .f32⟩
  | .hbm, ⟨10, _⟩ => ⟨S64x20, .f32⟩
  | .hbm, ⟨11, _⟩ => ⟨S1000000x20, .f32⟩
  | .hbm, ⟨12, _⟩ => ⟨S1000000x20, .f32⟩
  | .hbm, ⟨13, _⟩ => ⟨S1000000x20, .f32⟩
  | .hbm, ⟨14, _⟩ => ⟨S1000000x20, .f32⟩
  | .hbm, ⟨15, _⟩ => ⟨S_, .f32⟩
  | .hbm, ⟨16, _⟩ => ⟨S1000000x20, .f32⟩
  | .hbm, ⟨17, _⟩ => ⟨S1000000x20, .f32⟩
  | .hbm, ⟨18, _⟩ => ⟨S1000000x20, .f32⟩
  | .hbm, ⟨19, _⟩ => ⟨S_, .f32⟩
  | .hbm, ⟨20, _⟩ => ⟨S1000000x20, .f32⟩
  | .hbm, ⟨21, _⟩ => ⟨S1000000x20, .f32⟩
  | .hbm, ⟨22, _⟩ => ⟨S_, .f32⟩
  | .hbm, ⟨23, _⟩ => ⟨S1000000x20, .f32⟩
  | .hbm, ⟨24, _⟩ => ⟨S1000000x20, .f32⟩
  | .hbm, ⟨25, _⟩ => ⟨S_, .f32⟩
  | .hbm, ⟨26, _⟩ => ⟨S1000000x20, .f32⟩
  | .hbm, ⟨27, _⟩ => ⟨S1000000x20, .f32⟩
  | .hbm, ⟨28, _⟩ => ⟨S_, .f32⟩
  | .hbm, ⟨29, _⟩ => ⟨S1000000x20, .f32⟩
  | .hbm, ⟨30, _⟩ => ⟨S1000000x20, .f32⟩
  | .hbm, ⟨31, _⟩ => ⟨S_, .f32⟩
  | .hbm, ⟨32, _⟩ => ⟨S1000000, .f32⟩
  | .hbm, ⟨33, _⟩ => ⟨S1000000x1, .f32⟩
  | .hbm, ⟨34, _⟩ => ⟨S1000000x20, .f32⟩
  | .hbm, ⟨35, _⟩ => ⟨S1000000x20, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S1000000x64_S1000000_d1 : S1000000x64.ReducesTo [1] S1000000
  h_S_ : 0 < S_.numel
  bcast_S1000000_S1000000x1_0 : S1000000.BroadcastsInDim S1000000x1 (![0] : Fin 1 → Fin S1000000x1.rank)
  reducesTo_S20x64_S20_d1 : S20x64.ReducesTo [1] S20
  bcast_S20_S1x20_1 : S20.BroadcastsInDim S1x20 (![1] : Fin 1 → Fin S1x20.rank)
  transposes_S20x64_S64x20_1_0 : S20x64.Transposes [1, 0] S64x20
  bcast_S1000000x1_S1000000x20_0_1 : S1000000x1.BroadcastsInDim S1000000x20 (![0, 1] : Fin 2 → Fin S1000000x20.rank)
  bcast_S1x20_S1000000x20_0_1 : S1x20.BroadcastsInDim S1000000x20 (![0, 1] : Fin 2 → Fin S1000000x20.rank)
  bcast_S_S1000000x20 : S_.BroadcastsInDim S1000000x20 (![] : Fin 0 → Fin S1000000x20.rank)
  reducesTo_S1000000x20_S1000000_d1 : S1000000x20.ReducesTo [1] S1000000
  dot_S1000000x64_S64x20_S1000000x20_1_0_0_1_n_n_wf : DotDims.WF S1000000x64 S64x20 S1000000x20 [1] [0] [0] [1] [] []

variable [Facts₀]

def dot_S1000000x64_S64x20_S1000000x20_1_0_0_1_n_n : DotDims S1000000x64 S64x20 S1000000x20 where
  lhsContracting := [1]
  rhsContracting := [0]
  lhsNonContracting := [0]
  rhsNonContracting := [1]
  lhsBatch := []
  rhsBatch := []
  wf := dot_S1000000x64_S64x20_S1000000x20_1_0_0_1_n_n_wf

class Facts : Prop extends Facts₀ where

variable [Facts]
-- ==== Proof.Assign.lean ====
/-
  The mathematics of the cluster layer, with no program in sight.

  A point `x` (64 coordinates) is compared with 20 centroids `c j`. Its squared distance to centroid `j` is taken in
  the expanded form `‖x‖² + ‖c j‖² − 2·(x · c j)`; the Student-t similarity with one degree of freedom is
  `1 / (1 + d / 1)`; and the soft assignment of `x` is its row of similarities divided by their sum. Everything is
  read on the extended reals with the exact operations, the three float words `1.0`, `2.0` and `0.0` kept as words:
  both programs spell the same words, so only two facts about them are ever needed — `0.0` is the neutral element of
  the sums (the library's `Ideal.ofBits_zero_f32`) and `1.0`, as an exponent, changes nothing (`pow_one_word` below).
-/
import Idealize.ShloMosaic.PureOps.Ideal
import Idealize.ShloMosaic.PureOps.IdealRules
import Idealize.ShloMosaic.Lib.ValueIdx

noncomputable section

namespace Cert.ClusterAssign

open Idealize.ShloMosaic Idealize.ShloMosaic.ValueIdx

/-! ## The exponent one -/

/-- The float word of `1.0` denotes the extended real `1`. -/
theorem one_word : Ideal.ofBits .f32 0x3F800000#32 = 1 := IdealRules.sign_bit.ideal_onePat .f32

/-- Raising to the power one changes no extended real: `⊥` stays `⊥`, `⊤` to a positive power stays `⊤`, and on the
    reals `r ^ 1 = r` whatever the sign of `r`. No finiteness is asked of `q`. -/
theorem pow_one (q : EReal) : Ideal.pow q 1 = q := by
  induction q using EReal.rec with
  | bot => rfl
  | top => rw [Ideal.pow_top, if_pos zero_lt_one]
  | coe r => rw [← EReal.coe_one, Ideal.pow_coe_coe]; exact congrArg _ (Real.rpow_one r)

/-- The same with the exponent spelt as the float word `1.0`, the way a program spells it. -/
theorem pow_one_word (q : EReal) : Ideal.pow q (Ideal.ofBits .f32 0x3F800000#32) = q := by
  rw [one_word, pow_one]

/-! ## One point against the centroids -/

/-- The Student-t similarity of the point `x` to centroid `j`: `1 / (1 + (‖x‖² + ‖c j‖² − 2·(x · c j)) / 1)`. -/
def sim (x : Fin 64 → EReal) (c : Fin 20 → Fin 64 → EReal) (j : Fin 20) : EReal :=
  Ideal.div (Ideal.ofBits .f32 0x3F800000#32)
    (Ideal.ofBits .f32 0x3F800000#32
      + Ideal.div (((∑ k : Fin 64, x k * x k) + (∑ k : Fin 64, c j k * c j k))
          - Ideal.ofBits .f32 0x40000000#32 * (∑ k : Fin 64, x k * c j k))
        (Ideal.ofBits .f32 0x3F800000#32))

/-- The soft assignment of the point `x` to centroid `j`: its similarity over the sum of its twenty similarities. -/
def assign (x : Fin 64 → EReal) (c : Fin 20 → Fin 64 → EReal) (j : Fin 20) : EReal :=
  Ideal.div (sim x c j) (∑ j' : Fin 20, sim x c j')

/-! ## The whole array -/

/-- The soft assignments of a million points: entry `(r, j)` is the assignment of row `r` of `X` to row `j` of `C`.
    It depends on `X` through row `r` alone, which is why a block of rows of the result is a function of the same
    block of rows of `X`. -/
def soft (X : (⟨2, ![1000000, 64]⟩ : Shape).Idx → EReal) (C : (⟨2, ![20, 64]⟩ : Shape).Idx → EReal) :
    (⟨2, ![1000000, 20]⟩ : Shape).Idx → EReal :=
  fun i => assign (fun k => X (ix2 (i 0) k)) (fun j k => C (ix2 j k)) (i 1)

/-- `soft` at an index given by its two coordinates. -/
theorem soft_ix2 (X : (⟨2, ![1000000, 64]⟩ : Shape).Idx → EReal) (C : (⟨2, ![20, 64]⟩ : Shape).Idx → EReal)
    (r : Fin 1000000) (j : Fin 20) :
    soft X C (ix2 r j) = assign (fun k => X (ix2 r k)) (fun j k => C (ix2 j k)) j := rfl

end Cert.ClusterAssign

end
-- ==== Proof.Columns.lean ====
/-
  Sums along the rows of a matrix and the two layout steps of a `keepdims` sum, read at an index given by its
  coordinates.

  A row sum with `keepdims=True` is computed in three steps: the sum over the second axis of an `a × b` matrix is a
  vector of `a` entries; that vector is viewed as a column, an `a × 1` matrix; the column is then repeated along a new
  second axis of any length. Read at `(p, c)` the repeated column is entry `p` of the vector, which is the sum of row
  `p` of the matrix. Stated for any extents `a`, `b`, with every index built from literal coordinates.
-/
import Idealize.ShloMosaic.Lib.ValueLayout
import Idealize.ShloMosaic.PureOps.Ideal.Laws

noncomputable section

namespace Cert.ClusterAssign

open Idealize.ShloMosaic Idealize.ShloMosaic.ValueIdx

variable {α : Type}

/-- A vector of `a` entries viewed as an `a × 1` column: entry `(i, 0)` of the column is entry `i` of the vector
    (both sit at row-major position `i`). -/
theorem column_cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated along the second axis: entry `(p, c)` of the result is entry `(p, 0)` of the column. -/
theorem column_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of an `a × b` matrix of extended reals, started from the float word `0.0`, read at
    row `p`: the sum of the `b` entries of that row. -/
theorem lane_sum_apply {a b : ℕ} (y : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ y 0x00000000#32 h hφ hacc (ix1 p) = ∑ k : Fin b, y (ix2 p k) := by
  refine (Ideal.multiReduction_add_single y 0x00000000#32 h hφ hacc (ix1 p)).trans ?_
  refine Finset.sum_congr rfl fun k _ => congrArg y (funext fun c => Fin.ext ?_)
  match c with
  | ⟨0, _⟩ => rfl
  | ⟨1, _⟩ => rfl

end Cert.ClusterAssign

end
-- ==== Proof.Payload.lean ====
/-
  What the kernel's body computes for one block of 5000 points.

  The body loads a block `x0` of 5000 rows of the points and the whole table `x1` of 20 centroids, and stores one
  5000 × 20 value. Read at `(p, j)` that value is the soft assignment of row `p` of the block to centroid `j`: the two
  squared norms are sums along rows kept as columns and repeated, the cross term is a matrix product of the block with
  the transposed centroids (the change of float format before the product is the identity on the extended reals, and the
  product into a zero accumulator is the plain sum of products), the rest is pointwise, and the normalising sum runs
  along the 20 similarities of row `p`.
-/
import proofs.«171335_j3942779978386_1_alg».proof.Proof.Gen.KernelIdeal.Skeleton
import proofs.«171335_j3942779978386_1_alg».proof.Proof.Assign
import proofs.«171335_j3942779978386_1_alg».proof.Proof.Columns

noncomputable section

namespace Cert.ClusterAssign

open Idealize.ShloMosaic Idealize.ShloMosaic.ValueIdx
open Cert.KernelIdeal Cert.KernelIdeal.Gen

/-! ## The matrix product -/

/-- In the block's product with the transposed centroids, the left factor is read at the result's row … -/
theorem cross_lhs_row (i : S5000x20.Idx) (q : dot_S5000x64_S64x20_S5000x20_1_0_0_1_n_n.contr.Idx) :
    (dot_S5000x64_S64x20_S5000x20_1_0_0_1_n_n.lhsIdx i q 0).val = (i 0).val := by
  unfold DotDims.lhsIdx
  rw [dif_neg (show ¬(0 : Fin S5000x64.rank) ∈ dot_S5000x64_S64x20_S5000x20_1_0_0_1_n_n.lhsBatch by decide),
    dif_pos (show (0 : Fin S5000x64.rank) ∈ dot_S5000x64_S64x20_S5000x20_1_0_0_1_n_n.lhsNonContracting by decide)]
  rfl

/-- … and the right factor at the result's column. -/
theorem cross_rhs_col (i : S5000x20.Idx) (q : dot_S5000x64_S64x20_S5000x20_1_0_0_1_n_n.contr.Idx) :
    (dot_S5000x64_S64x20_S5000x20_1_0_0_1_n_n.rhsIdx i q 1).val = (i 1).val := by
  unfold DotDims.rhsIdx
  rw [dif_neg (show ¬(1 : Fin S64x20.rank) ∈ dot_S5000x64_S64x20_S5000x20_1_0_0_1_n_n.rhsBatch by decide),
    dif_pos (show (1 : Fin S64x20.rank) ∈ dot_S5000x64_S64x20_S5000x20_1_0_0_1_n_n.rhsNonContracting by decide)]
  rfl

/-- The block's matrix product with the transposed centroids into a zero accumulator, read at `(p, j)`: the sum over the
    64 coordinates of row `p` of the left factor times column `j` of the right one. -/
theorem cross_apply (l : FVec Ideal S5000x64 .bf16) (r : FVec Ideal S64x20 .bf16) (p : Fin 5000) (j : Fin 20) :
    matmul dot_S5000x64_S64x20_S5000x20_1_0_0_1_n_n none l r (constant (F := Ideal) S5000x20 .f32 0x00000000#32) (ix2 p j)
      = ∑ k : Fin 64, l (ix2 p k) * r (ix2 k j) := by
  refine (Ideal.matmul_constant_zero_apply dot_S5000x64_S64x20_S5000x20_1_0_0_1_n_n none l r (ix2 p j)).trans ?_
  rw [← Equiv.sum_comp (contrEquiv1 dot_S5000x64_S64x20_S5000x20_1_0_0_1_n_n 64 rfl rfl).symm]
  refine Finset.sum_congr rfl fun k _ => ?_
  have hk := contrEquiv1_symm_val dot_S5000x64_S64x20_S5000x20_1_0_0_1_n_n 64 rfl rfl k
  have el : dot_S5000x64_S64x20_S5000x20_1_0_0_1_n_n.lhsIdx (ix2 p j)
      ((contrEquiv1 dot_S5000x64_S64x20_S5000x20_1_0_0_1_n_n 64 rfl rfl).symm k) = ix2 p k :=
    funext fun a => Fin.ext (by
      match a with
      | ⟨0, _⟩ => exact cross_lhs_row _ _
      | ⟨1, _⟩ => exact (dot_S5000x64_S64x20_S5000x20_1_0_0_1_n_n.lhsIdx_val_of_single rfl _ _).trans hk)
  have er : dot_S5000x64_S64x20_S5000x20_1_0_0_1_n_n.rhsIdx (ix2 p j)
      ((contrEquiv1 dot_S5000x64_S64x20_S5000x20_1_0_0_1_n_n 64 rfl rfl).symm k) = ix2 k j :=
    funext fun a => Fin.ext (by
      match a with
      | ⟨0, _⟩ => exact (dot_S5000x64_S64x20_S5000x20_1_0_0_1_n_n.rhsIdx_val_of_single rfl _ _).trans hk
      | ⟨1, _⟩ => exact cross_rhs_col _ _)
  rw [el, er]

/-! ## The three row sums and the transposed table, as the body spells them -/

/-- The sum along a row of the 5000 × 64 block. -/
theorem point_row_sum (y : FVec Ideal S5000x64 .f32) (p : Fin 5000) :
    multiReduction .add [1] S5000 y 0x00000000#32 reduces_S5000x64_S5000 (.inl rfl) rfl (ix1 p)
      = ∑ k : Fin 64, y (ix2 p k) :=
  lane_sum_apply y _ _ _ p

/-- The sum along a row of the 20 × 64 table. -/
theorem centroid_row_sum (y : FVec Ideal S20x64 .f32) (j : Fin 20) :
    multiReduction .add [1] S20 y 0x00000000#32 reduces_S20x64_S20 (.inl rfl) rfl (ix1 j)
      = ∑ k : Fin 64, y (ix2 j k) :=
  lane_sum_apply y _ _ _ j

/-- The sum along a row of a 5000 × 20 value (the similarities of one point). -/
theorem similarity_row_sum (y : FVec Ideal S5000x20 .f32) (p : Fin 5000) :
    multiReduction .add [1] S5000 y 0x00000000#32 reduces_S5000x20_S5000 (.inl rfl) rfl (ix1 p)
      = ∑ k : Fin 20, y (ix2 p k) :=
  lane_sum_apply y _ _ _ p

/-- The table in the product's format and transposed, read at `(k, j)`: coordinate `k` of centroid `j`. -/
theorem centroids_transposed (x1 : FVec Ideal S20x64 .f32) (k : Fin 64) (j : Fin 20) :
    transpose S64x20 [1, 0] (truncf .bf16 x1 bitsLt_bf16_f32) transposes_S20x64_p1_0_S64x20 (ix2 k j) = x1 (ix2 j k) :=
  transpose_ix2_apply _ _ k j

/-- The cross term as the body spells it — both factors changed to the product's format, the table transposed, the
    accumulator zero — read at `(p, j)`: the inner product of point `p` of the block with centroid `j`. -/
theorem cross_product (x0 : FVec Ideal S5000x64 .f32) (x1 : FVec Ideal S20x64 .f32) (p : Fin 5000) (j : Fin 20) :
    matmul dot_S5000x64_S64x20_S5000x20_1_0_0_1_n_n none (truncf .bf16 x0 bitsLt_bf16_f32)
        (transpose S64x20 [1, 0] (truncf .bf16 x1 bitsLt_bf16_f32) transposes_S20x64_p1_0_S64x20)
        (constant (F := Ideal) S5000x20 .f32 0x00000000#32) (ix2 p j)
      = ∑ k : Fin 64, x0 (ix2 p k) * x1 (ix2 j k) :=
  (cross_apply _ _ p j).trans (Finset.sum_congr rfl fun k _ => congrArg (x0 (ix2 p k) * ·) (centroids_transposed x1 k j))

/-! ## The similarities of a block -/

/-- The similarities of the block's 5000 points to the 20 centroids, as the body computes them before normalising:
    the two squared norms repeated along the other axis and added, twice the cross term subtracted, then
    `1 / (1 + · / 1)` pointwise. -/
def simBlock (x0 : FVec Ideal S5000x64 .f32) (x1 : FVec Ideal S20x64 .f32) : FVec Ideal S5000x20 .f32 :=
  divf (broadcast S5000x20 (Scalar.ofBits .f32 0x3F800000#32))
    (addf (broadcast S5000x20 (Scalar.ofBits .f32 0x3F800000#32))
      (divf
        (subf
          (addf
            (broadcastTo S5000x20
              (shapeCast S5000x1
                (multiReduction .add [1] S5000 (mulf x0 x0) 0x00000000#32 reduces_S5000x64_S5000 (.inl rfl) rfl)
                shapeCasts_S5000_S5000x1)
              broadcasts_S5000x1_S5000x20)
            (broadcastTo S5000x20
              (shapeCast S1x20
                (multiReduction .add [1] S20 (mulf x1 x1) 0x00000000#32 reduces_S20x64_S20 (.inl rfl) rfl)
                shapeCasts_S20_S1x20)
              broadcasts_S1x20_S5000x20))
          (mulf (broadcast S5000x20 (Scalar.ofBits .f32 0x40000000#32))
            (matmul dot_S5000x64_S64x20_S5000x20_1_0_0_1_n_n none (truncf .bf16 x0 bitsLt_bf16_f32)
              (transpose S64x20 [1, 0] (truncf .bf16 x1 bitsLt_bf16_f32) transposes_S20x64_p1_0_S64x20)
              (constant S5000x20 .f32 0x00000000#32))))
        (broadcast S5000x20 (Scalar.ofBits .f32 0x3F800000#32))))

/-- What the body stores is the block of similarities, each row divided by its sum (the sum kept as a column and
    repeated along the row): the body's own sequence of operations, regrouped. -/
theorem payload_eq (x0 : FVec Ideal S5000x64 .f32) (x1 : FVec Ideal S20x64 .f32) :
    k0_pay1 (F := Ideal) x0 x1
      = divf (simBlock x0 x1)
          (broadcastTo S5000x20
            (shapeCast S5000x1
              (multiReduction .add [1] S5000 (simBlock x0 x1) 0x00000000#32 reduces_S5000x20_S5000 (.inl rfl) rfl)
              shapeCasts_S5000_S5000x1)
            broadcasts_S5000x1_S5000x20) := rfl

/-- Entry `(p, j)` of the block of similarities is the similarity of point `p` of the block to centroid `j`. -/
theorem simBlock_apply (x0 : FVec Ideal S5000x64 .f32) (x1 : FVec Ideal S20x64 .f32) (p : Fin 5000) (j : Fin 20) :
    simBlock x0 x1 (ix2 p j) = sim (fun k => x0 (ix2 p k)) (fun j' k => x1 (ix2 j' k)) j := by
  unfold simBlock sim
  simp only [divf_apply, addf_apply, subf_apply, mulf_apply, broadcast_apply,
    column_bcast_apply, column_cast_apply, broadcastTo_1b_ab_apply, shapeCast_a_1a_apply]
  rw [point_row_sum, centroid_row_sum, cross_product]
  rfl

/-! ## The payload -/

/-- THE PAYLOAD AT AN INDEX: entry `(p, j)` of what the body stores is the soft assignment of row `p` of the loaded
    block of points to centroid `j` of the loaded table. -/
theorem payload_apply (x0 : FVec Ideal S5000x64 .f32) (x1 : FVec Ideal S20x64 .f32) (p : Fin 5000) (j : Fin 20) :
    k0_pay1 (F := Ideal) x0 x1 (ix2 p j) = assign (fun k => x0 (ix2 p k)) (fun j' k => x1 (ix2 j' k)) j := by
  rw [payload_eq, divf_apply, column_bcast_apply, column_cast_apply, similarity_row_sum]
  exact congrArg₂ Ideal.div (simBlock_apply x0 x1 p j) (Finset.sum_congr rfl fun j' _ => simBlock_apply x0 x1 p j')

end Cert.ClusterAssign

end
-- ==== Proof.Blocks.lean ====
/-
  From the blocks to the whole array.

  The grid has 200 points. Point `t` reads rows `5000·t … 5000·t + 4999` of the points (its block of window 0), the whole
  table of centroids (window 1, the same block at every point) and writes rows `5000·t … 5000·t + 4999` of the result
  (window 2). Since entry `(r, j)` of the array of soft assignments depends on the points through row `r` alone, what
  point `t` writes back is exactly block `t` of that array; the 200 blocks tile the million rows (row `r` lies in block
  `r / 5000`); so after the run the result array IS the array of soft assignments of the argument arrays.
-/
import proofs.«171335_j3942779978386_1_alg».proof.Proof.Gen.KernelIdeal.Value
import proofs.«171335_j3942779978386_1_alg».proof.Proof.Payload

set_option maxRecDepth 16384

noncomputable section

namespace Cert.ClusterAssign

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The printed index maps, decided over the 200 grid points: at point `t` the points' window and the result's window
    are both at block row `t`, block column `0`; the centroids' window stays at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of block `t` is row `5000·t + p` of the array. -/
def rowOf (t : Fin cfg0.N) (p : Fin 5000) : Fin 1000000 :=
  ⟨t.val * 5000 + p.val, by
    have ht : t.val < grid0.N := t.isLt
    rw [N_0] at ht
    have := p.isLt
    omega⟩

/-- WHAT POINT `t` WRITES BACK is block `t` of the array of soft assignments of the argument arrays as the region
    finds them: the body's payload at `(p, j)` is the assignment of row `p` of the loaded block, which is row
    `5000·t + p` of the points, to centroid `j` of the loaded table, which is the whole table. -/
theorem flushed_eq (c : Dev nD) (t : Fin cfg0.N) :
    (dats m 0 c).flushed 2 t
      = ((cfg0.win 2).blk t).view.read (Elt Ideal) (soft (V m c main_arg0) (V m c main_arg1)) := by
  rw [Cert.KernelIdeal.Value.flushed2]
  unfold out0_2
  rw [View.canon_unit_zero origin]
  simp only [View.ld_unit_zero (S := S5000x64) origin, View.ld_unit_zero (S := S20x64) origin]
  obtain ⟨e00, e01, e10, e11, e20, e21⟩ := block_indices t
  funext y
  obtain ⟨p, j, rfl⟩ : ∃ (p : Fin 5000) (j : Fin 20), y = ix2 p j := ⟨y 0, y 1, eq_ix2 y⟩
  show k0_pay1 (iblk m c 0 t) (iblk m c 1 t) (ix2 p j)
    = soft (V m c main_arg0) (V m c main_arg1) (((cfg0.win 2).blk t).view.emb (ix2 p j))
  -- the result's entry `(p, j)` of block `t` sits at `(5000·t + p, j)`
  have hout : ((cfg0.win 2).blk t).view.emb (ix2 p j) = ix2 (rowOf t p) j := by
    funext a; apply Fin.ext
    match a with
    | ⟨0, _⟩ => show win0_2.index t (0 : Fin 2) * 5000 + 1 * p.val = t.val * 5000 + p.val; omega
    | ⟨1, _⟩ => show win0_2.index t (1 : Fin 2) * 20 + 1 * j.val = j.val; omega
  -- row `p` of the points' block is row `5000·t + p` of the points
  have hx : ∀ k : Fin 64, iblk m c 0 t (ix2 p k) = V m c main_arg0 (ix2 (rowOf t p) k) := fun k => by
    show V m c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  -- the centroids' block is the whole table
  have hc : ∀ (j' : Fin 20) (k : Fin 64), iblk m c 1 t (ix2 j' k) = V m c main_arg1 (ix2 j' k) := fun j' k => by
    show V m c main_arg1 (((cfg0.win 1).blk t).view.emb (ix2 j' k)) = _
    refine congrArg _ (funext fun a => Fin.ext ?_)
    match a with
    | ⟨0, _⟩ => show win0_1.index t (0 : Fin 2) * 20 + 1 * j'.val = j'.val; omega
    | ⟨1, _⟩ => show win0_1.index t (1 : Fin 2) * 64 + 1 * k.val = k.val; omega
  rw [hout, soft_ix2]
  refine (payload_apply (iblk m c 0 t) (iblk m c 1 t) p j).trans ?_
  exact congrArg₂ (fun x cs => assign x cs j) (funext hx) (funext fun j' => funext (hc j'))

/-- An index of the result array is in point `t`'s block iff each coordinate is in the block's range on its axis. -/
theorem mem_block (t : Fin cfg0.N) (i : S1000000x20.Idx) :
    i ∈ ((cfg0.win 2).blk t).view.set
      ↔ ∀ a : Fin 2, win0_2.index t a * S5000x20.size a ≤ (i a).val
          ∧ (i a).val < win0_2.index t a * S5000x20.size a + S5000x20.size a := by
  show i ∈ ((View.whole main_v0).slice (win0_2.rect t)).set ↔ _
  rw [View.set_slice_whole, Rect.mem_set_unit]
  exact Iff.rfl

/-- THE BLOCKS TILE THE ARRAY: row `r` of the result lies in the block of point `r / 5000`, and every point writes
    its block back. -/
theorem covered (i : S1000000x20.Idx) :
    ∃ t : Fin cfg0.N, (cfg0.win 2).flush t = true ∧ i ∈ ((cfg0.win 2).blk t).view.set := by
  have hi0 : (i 0).val < 1000000 := (i 0).isLt
  have hi1 : (i 1).val < 20 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨-, -, -, -, e20, e21⟩ := block_indices t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 20 ≤ (i 1).val ∧ (i 1).val < win0_2.index t (1 : Fin 2) * 20 + 20
    omega

/-- THE RESULT ARRAY after the run is the array of soft assignments of the argument arrays. -/
theorem final (c : Dev nD) :
    (dats m 0 c).arrAt 2 cfg0.N
      = soft (m ((c : Thread nD τ).loc main_arg0)) (m ((c : Thread nD τ).loc main_arg1)) :=
  (dats m 0 c).arrAt_eq_of_cover 2 _ (fun t _ => flushed_eq m c t) covered

/-- THE KERNEL'S RUN, READ: every weakly fair execution terminates with the result array at the soft assignments of
    the argument arrays, and the argument arrays unchanged. -/
theorem run : θ_run defs (onTc (τ := τ) (main (F := Ideal))) ⟨m, fun _ => 0, ρ⟩ fun r => ∀ c : Dev nD,
      r.2.mem ((c : Thread nD τ).loc main_v0)
        = soft (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.ClusterAssign

end
-- ==== Proof.RefValue.lean ====
/-
  What the reference computes, read at an index.

  The reference is a chain of whole-array operations on the million points `X` and the twenty centroids `C`: the two
  squared norms by sums along rows (each started from `0.0`), kept as a column and as a row and repeated to the full
  `1000000 × 20` shape; the cross term by one product of `X` with the transposed table; `1 / (1 + d / 1)` pointwise; a power
  with exponent `1.0`; and each row divided by its sum. Read at `(r, j)` every layout step only renames the index, the
  sums' starting value `0.0` is the zero of the extended reals, and the power with exponent one is the identity: what is
  left is the soft assignment of row `r` of `X` to centroid `j`.
-/
import proofs.«171335_j3942779978386_1_alg».proof.Proof.Gen.ReferenceIdeal.Read
import proofs.«171335_j3942779978386_1_alg».proof.Proof.Assign

noncomputable section

namespace Cert.ClusterAssign

open Idealize.ShloMosaic Idealize.ShloMosaic.ValueIdx
open Cert.ReferenceIdeal Cert.ReferenceIdeal.Read

/-- The stage after the power, at `(r, j)`: the similarity of point `r` to centroid `j`. -/
theorem ref_sim (X : (⟨S1000000x64, .f32⟩ : BufTy).Contents (Elt Ideal)) (C : (⟨S20x64, .f32⟩ : BufTy).Contents (Elt Ideal))
    (r : Fin 1000000) (j : Fin 20) :
    val_main_v21 (F := Ideal) X C (ix2 r j) = sim (fun k => X (ix2 r k)) (fun j' k => C (ix2 j' k)) j := by
  -- the squared norm of the point: the column repeated along the row is read back at row `r`
  have ex : ∀ k : Fin 64, idx_main_v1 (idx_main_v2 (idx_main_v8 (ix2 r j))) k = ix2 r k := fun k =>
    funext fun a => Fin.ext (by match a with | ⟨0, _⟩ => rfl | ⟨1, _⟩ => rfl)
  -- the squared norm of the centroid: the row repeated along the column is read back at row `j` of the table
  have ec : ∀ k : Fin 64, idx_main_v4 (idx_main_v5 (idx_main_v9 (ix2 r j))) k = ix2 j k := fun k =>
    funext fun a => Fin.ext (by match a with | ⟨0, _⟩ => rfl | ⟨1, _⟩ => rfl)
  -- the product: row `r` of the points against column `j` of the transposed table, that is row `j` of the table
  have el : ∀ k : Fin 64, lidx_main_v7 (ix2 r j) k = ix2 r k := fun k =>
    funext fun a => Fin.ext (by match a with | ⟨0, _⟩ => rfl | ⟨1, _⟩ => rfl)
  have er : ∀ k : Fin 64, idx_main_v6 (ridx_main_v7 (ix2 r j) k) = ix2 j k := fun k =>
    funext fun a => Fin.ext (by match a with | ⟨0, _⟩ => rfl | ⟨1, _⟩ => rfl)
  rw [val_main_v21_apply, val_main_v20_apply, val_main_cst_5_apply, val_main_v19_apply, val_main_v18_apply,
    val_main_cst_4_apply, val_main_v17_apply, val_main_v16_apply, val_main_cst_3_apply, val_main_v15_apply,
    val_main_v14_apply, val_main_cst_2_apply, val_main_v13_apply, val_main_v10_apply, val_main_v8_apply,
    val_main_v2_apply, val_main_v1_apply, val_main_v9_apply, val_main_v5_apply, val_main_v4_apply,
    val_main_v12_apply, val_main_v11_apply, val_main_cst_1_apply, val_main_v7_apply]
  simp only [val_main_v0_apply, val_main_v3_apply, val_main_v6_apply, val_main_cst_apply, val_main_cst_0_apply,
    ex, ec, el, er, Ideal.hostPowf_def, Ideal.hostDivf_def, Ideal.addf_def, Ideal.subf_def, Ideal.mulf_def,
    Ideal.ofBits_def, Ideal.ofBits_zero_f32, zero_add, pow_one_word]
  rfl

/-- The reference's result at `(r, j)`: the soft assignment of point `r` to centroid `j`. -/
theorem ref_apply (X : (⟨S1000000x64, .f32⟩ : BufTy).Contents (Elt Ideal)) (C : (⟨S20x64, .f32⟩ : BufTy).Contents (Elt Ideal))
    (r : Fin 1000000) (j : Fin 20) :
    val_main_v25 (F := Ideal) X C (ix2 r j) = assign (fun k => X (ix2 r k)) (fun j' k => C (ix2 j' k)) j := by
  -- the row sum kept as a column and repeated is read back at row `r`, and runs over the row's twenty similarities
  have es : ∀ k : Fin 20, idx_main_v22 (idx_main_v23 (idx_main_v24 (ix2 r j))) k = ix2 r k := fun k =>
    funext fun a => Fin.ext (by match a with | ⟨0, _⟩ => rfl | ⟨1, _⟩ => rfl)
  rw [val_main_v25_apply, val_main_v24_apply, val_main_v23_apply, val_main_v22_apply, val_main_cst_6_apply]
  simp only [es, ref_sim, Ideal.hostDivf_def, Ideal.ofBits_def, Ideal.ofBits_zero_f32, zero_add]
  rfl

/-- THE REFERENCE'S VALUE: its last stage, as a whole array, is the array of soft assignments. -/
theorem ref_eq (X : (⟨S1000000x64, .f32⟩ : BufTy).Contents (Elt Ideal)) (C : (⟨S20x64, .f32⟩ : BufTy).Contents (Elt Ideal)) :
    val_main_v25 (F := Ideal) X C = soft X C := by
  funext i
  obtain ⟨r, j, rfl⟩ : ∃ (r : Fin 1000000) (j : Fin 20), i = ix2 r j := ⟨i 0, i 1, eq_ix2 i⟩
  exact ref_apply X C r j

end Cert.ClusterAssign

end
-- ==== Proof.lean ====
/-
  A cluster layer: soft assignment of a million points to twenty centroids, as a pipelined kernel and as whole-array
  operations, are one function on the extended reals.

  Both programs take points `X` (1000000 × 64) and centroids `C` (20 × 64) and return, for every point `r` and centroid
  `j`, the Student-t similarity `q(r, j) = 1 / (1 + (‖X r‖² + ‖C j‖² − 2·(X r · C j)) / 1)` divided by the sum of the
  point's twenty similarities. The kernel walks the points in 200 blocks of 5000 rows; in each it forms the two squared
  norms by row sums, the cross term by a matrix product with the transposed centroids after a change of float format,
  and normalises each row of the block. The reference does the same with whole-array operations, and in addition raises
  every similarity to the power `(1 + 1)/2 = 1.0` before normalising.

  On the extended reals with exact operations the change of float format is the identity, a row sum and a matrix product
  are plain finite sums whatever their order, and `q ^ 1 = q` for EVERY extended real `q` (infinite or negative
  included). So the two results agree entry by entry by unfolding alone: no law of arithmetic beyond `0 + s = s` is used,
  and the precondition (finite inputs) is never opened.

  The modules: `Proof/Assign` states the mathematics (`sim`, `assign`, `soft`) and the power law; `Proof/Columns` reads a
  `keepdims` row sum at an index; `Proof/Payload` shows the kernel body's stored value at `(p, j)` is `assign` of row `p`
  of its block; `Proof/Blocks` shows point `t` writes block `t` of `soft X C`, that the blocks tile the array, and
  re-states the kernel's run with the result named; `Proof/RefValue` shows the reference's last stage is `soft X C`.
  Here the five claims are assembled.
-/
import proofs.«171335_j3942779978386_1_alg».proof.Defs
import proofs.«171335_j3942779978386_1_alg».proof.Proof.Gen.Kernel
import proofs.«171335_j3942779978386_1_alg».proof.Proof.Gen.Kernel.Skeleton
import proofs.«171335_j3942779978386_1_alg».proof.Proof.Gen.Kernel.Launch
import proofs.«171335_j3942779978386_1_alg».proof.Proof.Gen.Kernel.Points
import proofs.«171335_j3942779978386_1_alg».proof.Proof.Gen.Kernel.Frame
import proofs.«171335_j3942779978386_1_alg».proof.Proof.Gen.KernelIdeal
import proofs.«171335_j3942779978386_1_alg».proof.Proof.Gen.KernelIdeal.Skeleton
import proofs.«171335_j3942779978386_1_alg».proof.Proof.Gen.KernelIdeal.Launch
import proofs.«171335_j3942779978386_1_alg».proof.Proof.Gen.KernelIdeal.Points
import proofs.«171335_j3942779978386_1_alg».proof.Proof.Gen.KernelIdeal.Frame
import proofs.«171335_j3942779978386_1_alg».proof.Proof.Gen.ReferenceIdeal
import proofs.«171335_j3942779978386_1_alg».proof.Proof.Gen.Pre_finite_inputs
import proofs.«171335_j3942779978386_1_alg».proof.Proof.Gen.KernelIdeal.Value
import proofs.«171335_j3942779978386_1_alg».proof.Proof.Gen.ReferenceIdeal.Run
import proofs.«171335_j3942779978386_1_alg».proof.Proof.Gen.ReferenceIdeal.Read
import proofs.«171335_j3942779978386_1_alg».proof.Proof.Blocks
import proofs.«171335_j3942779978386_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to completion without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation, so there is nothing to preserve. -/
theorem preserves : Cert.preserves_Kernel_KernelIdeal := trivial

/-- From memories that agree on the points and the centroids, the kernel's result array ends at the soft assignments
    of its arguments (`Cert.ClusterAssign.run`) and the reference's at its last stage of its own arguments, which is the
    soft assignments too (`Cert.ClusterAssign.ref_eq`): the same array. -/
theorem algebraic : Cert.algebraic_KernelIdeal_ReferenceIdeal := by
  intro m ρ m' ρ' _ hagree
  refine ⟨_, Cert.ClusterAssign.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ClusterAssign.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
